-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S1024x1024 : Shape := ⟨2, ![1024, 1024]⟩
abbrev S1024 : Shape := ⟨1, ![1024]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x16384 .f32) (main_arg1 : FVec F S1024x1024 .f32) (main_arg2 : FVec F S1024 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1024x16384 : Shape := ⟨2, ![1024, 16384]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1024x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1, .f32⟩
  | .local _ .vmem, ⟨4, _⟩ => ⟨S1024x1024, .f32⟩
  | .local _ .vmem, ⟨5, _⟩ => ⟨S1024x1024, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1024x1 : S1024.ShapeCasts S1024x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x16384.size a
  hwx0_1 : ∀ i : grid0.Coords, EltTy.bits .f32 = 32 ∨ (Rect.block (s := S1024x16384) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x16384.size a
  hwx0_3 : ∀ i : grid0.Coords, EltTy.bits .f32 = 32 ∨ (Rect.block (s := S1024x16384) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024, .f32⟩
  | .hbm, ⟨3, _⟩ => ⟨S1024x16384, .f32⟩
  | .hbm, ⟨4, _⟩ => ⟨S1024x1, .f32⟩
  | .hbm, ⟨5, _⟩ => ⟨S1024x16384, .f32⟩
  | .hbm, ⟨6, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x16384_0_1 : S1024x1.BroadcastsInDim S1024x16384 (![0, 1] : Fin 2 → Fin S1024x16384.rank)
  dot_S1024x1024_S1024x16384_S1024x16384_1_0_0_1_n_n_wf : DotDims.WF S1024x1024 S1024x16384 S1024x16384 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibAffineColumns.lean ====
/-
  An affine map applied to the columns of a matrix, over the extended reals.

  For a weight matrix `w` of shape [a, K], a matrix `x` of shape [K, n] whose columns are the inputs, and a bias vector
  `bias` of length a, the affine map sends column c of `x` to `w · x[:, c] + bias`: entry (r, c) of the result is
  `(∑ k, w[r, k] · x[k, c]) + bias[r]`. This file names that whole-array function (`affine`) and reads, at an index
  given by coordinates, the array operations that compute one block of it on the device: a matrix product into a zero
  accumulator whose operands pass through a change of float format (the identity on an extended real), plus a bias
  column [a, 1] broadcast along the lanes. It also reads a vector viewed as a column, [a] → [a, 1]. Every statement is
  for arbitrary extents, so it serves a block of columns and the whole array alike; no finiteness is needed, because
  the two sides are the same sum and the same addition.
-/
import proofs.«106586_j56495999811946_1_alg».proof.Proof.LibRowLayers
import proofs.«106586_j56495999811946_1_alg».proof.Proof.LibColumnBroadcast

noncomputable section

namespace Cert.AffineColumns

open Idealize.ShloMosaic Idealize.ShloMosaic.ValueIdx Cert.RowLayers

/-- The affine map on columns: entry `(r, c)` is `(∑ k, w[r, k] · x[k, c]) + bias[r]`. -/
def affine {a K n : ℕ} (w : (⟨2, ![a, K]⟩ : Shape).Idx → EReal) (x : (⟨2, ![K, n]⟩ : Shape).Idx → EReal)
    (bias : (⟨1, ![a]⟩ : Shape).Idx → EReal) : (⟨2, ![a, n]⟩ : Shape).Idx → EReal :=
  fun i => (∑ k : Fin K, w (ix2 (i 0) k) * x (ix2 k (i 1))) + bias (ix1 (i 0))

/-- The affine map at an index written by coordinates. -/
theorem affine_ix2 {a K n : ℕ} (w : (⟨2, ![a, K]⟩ : Shape).Idx → EReal) (x : (⟨2, ![K, n]⟩ : Shape).Idx → EReal)
    (bias : (⟨1, ![a]⟩ : Shape).Idx → EReal) (r : Fin a) (c : Fin n) :
    affine w x bias (ix2 r c) = (∑ k : Fin K, w (ix2 r k) * x (ix2 k c)) + bias (ix1 r) := rfl

/-- A vector viewed as a column, `[a] → [a, 1]`, reads at `(r, u)` the vector at `r`: the two indices have the same
    row-major position `r`. -/
theorem shapeCast_a_a1_apply {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

section Block
variable {a K b : ℕ} {d : DotDims ⟨2, ![a, K]⟩ ⟨2, ![K, b]⟩ ⟨2, ![a, b]⟩}

/-- One block of the affine map as the device computes it: both operands change float format (nothing happens to an
    extended real), their product is accumulated into zeros, and the bias column — cast to its own shape, then broadcast
    along the lanes — is added. Entry `(p, q)` is `(∑ k, w[p, k] · x[k, q]) + col[p, 0]`. -/
theorem matmul_add_column_apply {φ ψ : FTy} (H : RowsTimesCols d) (prec : Option ContractPrecision)
    (w : FVec Ideal ⟨2, ![a, K]⟩ φ) (x : FVec Ideal ⟨2, ![K, b]⟩ φ) (col : FVec Ideal ⟨2, ![a, 1]⟩ .f32)
    (hφ : ψ.bits < φ.bits) (hc : (⟨2, ![a, 1]⟩ : Shape).ShapeCasts ⟨2, ![a, 1]⟩)
    (hb : (⟨2, ![a, 1]⟩ : Shape).Broadcasts ⟨2, ![a, b]⟩) (p : Fin a) (q : Fin b) :
    addf (matmul d prec (truncf ψ w hφ) (truncf ψ x hφ) (constant (F := Ideal) ⟨2, ![a, b]⟩ .f32 0x00000000#32))
        (broadcastTo ⟨2, ![a, b]⟩ (shapeCast ⟨2, ![a, 1]⟩ col hc) hb) (ix2 p q)
      = (∑ k : Fin K, w (ix2 p k) * x (ix2 k q)) + col (ix2 p (0 : Fin 1)) := by
  have hprod := congrFun (rowOf_matmul_zero H prec (truncf ψ w hφ : FVec Ideal ⟨2, ![a, K]⟩ ψ)
    (truncf ψ x hφ : FVec Ideal ⟨2, ![K, b]⟩ ψ) p) q
  have hcol : broadcastTo ⟨2, ![a, b]⟩ (shapeCast ⟨2, ![a, 1]⟩ col hc) hb (ix2 p q) = col (ix2 p (0 : Fin 1)) := by
    rw [Cert.ColumnBroadcast.broadcastTo_a1_ab_apply, shapeCast_self]
  show matmul d prec (truncf ψ w hφ) (truncf ψ x hφ) (constant (F := Ideal) ⟨2, ![a, b]⟩ .f32 0x00000000#32) (ix2 p q)
      + broadcastTo ⟨2, ![a, b]⟩ (shapeCast ⟨2, ![a, 1]⟩ col hc) hb (ix2 p q) = _
  rw [hcol]
  exact congrArg (· + col (ix2 p (0 : Fin 1))) hprod

end Block

end Cert.AffineColumns

end
-- ==== Proof.KernelBlock.lean ====
/-
  What the kernel's body stores, entry by entry.

  At one grid point the body loads the whole weight matrix W [1024, 1024], one block X of 1024 columns of the input
  [1024, 1024] and the bias column B [1024, 1]; it rounds W and X to a narrower float format (the identity on an
  extended real), multiplies them into a zero accumulator with the second axis of W contracted against the first of X,
  broadcasts B along the lanes, adds, and stores the sum as the output block. Entry (p, q) of what it stores is
  `(∑ k, W[p, k] · X[k, q]) + B[p, 0]`.
-/
import proofs.«106586_j56495999811946_1_alg».proof.Proof.Gen.KernelIdeal.Skeleton
import proofs.«106586_j56495999811946_1_alg».proof.Proof.LibAffineColumns

noncomputable section

namespace Cert.KernelIdeal.Block

open Cert.KernelIdeal Cert.KernelIdeal.Gen
open Idealize.ShloMosaic Idealize.ShloMosaic.ValueIdx Cert.RowLayers Cert.AffineColumns

/-- The body's product is "rows times columns": one contracted axis of extent 1024, the left operand read at
    (output row, contracted position) and the right one at (contracted position, output column). -/
theorem rowsTimesCols : RowsTimesCols dot_S1024x1024_S1024x1024_S1024x1024_1_0_0_1_n_n where
  rank := rfl
  size := rfl
  lhs0 := fun j q => by
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  lhs1 := fun j q => dot_S1024x1024_S1024x1024_S1024x1024_1_0_0_1_n_n.lhsIdx_val_of_single rfl j q
  rhs0 := fun j q => dot_S1024x1024_S1024x1024_S1024x1024_1_0_0_1_n_n.rhsIdx_val_of_single rfl j q
  rhs1 := fun j q => by
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- Entry `(p, q)` of the stored block, from the three loaded blocks. -/
theorem stored_apply (W : Vec Ideal S1024x1024 .f32) (X : Vec Ideal S1024x1024 .f32) (B : Vec Ideal S1024x1 .f32)
    (p q : Fin 1024) :
    k0_pay1 (F := Ideal) W X B (ix2 p q) = (∑ k : Fin 1024, W (ix2 p k) * X (ix2 k q)) + B (ix2 p (0 : Fin 1)) := by
  unfold k0_pay1
  exact matmul_add_column_apply rowsTimesCols none W X B bitsLt_bf16_f32 shapeCasts_S1024x1_S1024x1
    broadcasts_S1024x1_S1024x1024 p q

end Cert.KernelIdeal.Block

end
-- ==== Proof.KernelAffine.lean ====
/-
  The kernel's result array is the affine map on columns.

  The grid has 16 points. At point t the kernel stages the whole weight matrix (block index (0, 0) of [1024, 1024]),
  columns 1024·t … 1024·t + 1023 of the input (block (0, t) of [1024, 16384]) and the whole bias column (block (0, 0)
  of [1024, 1]), and writes back block (0, t) of the output [1024, 16384]. The bias column is the bias vector viewed
  [1024] → [1024, 1] by the host before the call. Entry (p, q) of the block written at t is
  `(∑ k, W[p, k] · X[k, 1024·t + q]) + bias[p]`, which is the affine map at (p, 1024·t + q); the 16 blocks are disjoint
  and cover every column c (the block of c is t = c / 1024), so after the run the output array is the affine map of the
  three argument arrays.
-/
import proofs.«106586_j56495999811946_1_alg».proof.Proof.Gen.KernelIdeal.Value
import proofs.«106586_j56495999811946_1_alg».proof.Proof.KernelBlock
import Idealize.ShloMosaic.Lib.StableHlo.Run

noncomputable section

namespace Cert.KernelIdeal.AffineValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.AffineColumns
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The four index maps over the 16 grid points: the weight and the bias column stay at block (0, 0); the input and the
    output are at block (0, t). -/
theorem index_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The bias column as the region finds it: the bias vector viewed as a column. -/
theorem column_eq (c : Dev nD) :
    (V m c main_v0 : S1024x1.Idx → EReal)
      = shapeCast S1024x1 (m ((c : Thread nD τ).loc main_arg2)) shapeCasts_S1024_S1024x1 := by
  dsimp only [Gen.V, Gen.hostOps0]; after_results; rfl

/-- What point `t` writes back is block `t` of the affine map of the arrays as the region finds them. -/
theorem flushed_eq (c : Dev nD) (t : Fin cfg0.N) :
    (dats m 0 c).flushed 3 t = ((cfg0.win 3).blk t).view.read (Elt Ideal)
      (affine (V m c main_arg1) (V m c main_arg0) (m ((c : Thread nD τ).loc main_arg2))) := by
  show (cfg0.win 3).cut (grid0.coords t) ((dats m 0 c).after 3 t) = _
  rw [after0_3]
  unfold out0_3
  rw [View.canon_unit_zero origin]
  simp only [View.ld_unit_zero (S := S1024x1024) origin, View.ld_unit_zero (S := S1024x1) origin]
  obtain ⟨a00, a01, a10, a11, a20, a21, a30, a31⟩ := index_facts t
  have ht : t.val < 16 := Nat.lt_of_lt_of_eq t.isLt N_0
  funext j
  obtain ⟨p, q, rfl⟩ : ∃ (p : Fin 1024) (q : Fin 1024), j = ix2 p q := ⟨j 0, j 1, eq_ix2 j⟩
  -- the column of the output array this entry lands in
  let cq : Fin 16384 := ⟨t.val * 1024 + q.val, by have := q.isLt; omega⟩
  have he : ((cfg0.win 3).blk t).view.emb (ix2 p q) = ix2 p cq := by
    funext a; apply Fin.ext
    match a with
    | ⟨0, _⟩ => show win0_3.index t (0 : Fin 2) * 1024 + 1 * p.val = p.val; omega
    | ⟨1, _⟩ => show win0_3.index t (1 : Fin 2) * 1024 + 1 * q.val = t.val * 1024 + q.val; omega
  show k0_pay1 (iblk m c 0 t) (iblk m c 1 t) (iblk m c 2 t) (ix2 p q)
    = affine (V m c main_arg1) (V m c main_arg0) (m ((c : Thread nD τ).loc main_arg2)) (((cfg0.win 3).blk t).view.emb (ix2 p q))
  rw [he, affine_ix2]
  refine (Block.stored_apply _ _ _ p q).trans ?_
  refine congrArg₂ (· + ·) (Finset.sum_congr rfl fun k _ => congrArg₂ (· * ·) ?_ ?_) ?_
  · -- the weight block is the weight matrix
    show V m c main_arg1 (((cfg0.win 0).blk t).view.emb (ix2 p k)) = V m c main_arg1 (ix2 p k)
    refine congrArg _ (funext fun a => Fin.ext ?_)
    match a with
    | ⟨0, _⟩ => show win0_0.index t (0 : Fin 2) * 1024 + 1 * p.val = p.val; omega
    | ⟨1, _⟩ => show win0_0.index t (1 : Fin 2) * 1024 + 1 * k.val = k.val; omega
  · -- the input block's column q is the input's column 1024·t + q
    show V m c main_arg0 (((cfg0.win 1).blk t).view.emb (ix2 k q)) = V m c main_arg0 (ix2 k cq)
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = t.val * 1024 + q.val; omega
  · -- the bias column at row p is the bias vector at p
    show V m c main_v0 (((cfg0.win 2).blk t).view.emb (ix2 p (0 : Fin 1))) = m ((c : Thread nD τ).loc main_arg2) (ix1 p)
    have hb : ((cfg0.win 2).blk t).view.emb (ix2 p (0 : Fin 1)) = ix2 p (0 : Fin 1) := by
      funext a; apply Fin.ext
      match a with
      | ⟨0, _⟩ => show win0_2.index t (0 : Fin 2) * 1024 + 1 * p.val = p.val; omega
      | ⟨1, _⟩ => show win0_2.index t (1 : Fin 2) * 1 + 1 * 0 = 0; omega
    rw [hb, column_eq]
    exact shapeCast_a_a1_apply _ _ p 0

/-- An index of the output array is in point `t`'s block iff each coordinate is in the block's range on its axis. -/
theorem mem_block (t : Fin cfg0.N) (i : S1024x16384.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the output array is in some point's block: column c is in the block of t = c / 1024. -/
theorem covered (i : S1024x16384.Idx) :
    ∃ t : Fin cfg0.N, (cfg0.win 3).flush t = true ∧ i ∈ ((cfg0.win 3).blk t).view.set := by
  have hi0 : (i 0).val < 1024 := (i 0).isLt
  have hi1 : (i 1).val < 16384 := (i 1).isLt
  have hN : cfg0.N = 16 := N_0
  have hlt : (i 1).val / 1024 < cfg0.N := by rw [hN]; omega
  obtain ⟨-, -, -, -, -, -, a30, a31⟩ := index_facts ⟨(i 1).val / 1024, hlt⟩
  refine ⟨⟨(i 1).val / 1024, hlt⟩, flush0_3 _, ?_⟩
  rw [mem_block]
  intro a
  match a with
  | ⟨0, _⟩ =>
    show win0_3.index ⟨(i 1).val / 1024, hlt⟩ (0 : Fin 2) * 1024 ≤ (i 0).val
      ∧ (i 0).val < win0_3.index ⟨(i 1).val / 1024, hlt⟩ (0 : Fin 2) * 1024 + 1024
    omega
  | ⟨1, _⟩ =>
    show win0_3.index ⟨(i 1).val / 1024, hlt⟩ (1 : Fin 2) * 1024 ≤ (i 1).val
      ∧ (i 1).val < win0_3.index ⟨(i 1).val / 1024, hlt⟩ (1 : Fin 2) * 1024 + 1024
    have hv : (⟨(i 1).val / 1024, hlt⟩ : Fin cfg0.N).val = (i 1).val / 1024 := rfl
    omega

/-- The output array after the run: the affine map of the three argument arrays as launched. -/
theorem final (c : Dev nD) :
    (dats m 0 c).arrAt 3 cfg0.N
      = affine (m ((c : Thread nD τ).loc main_arg1)) (m ((c : Thread nD τ).loc main_arg0)) (m ((c : Thread nD τ).loc main_arg2)) := by
  rw [(dats m 0 c).arrAt_eq_of_cover 3
    (affine (V m c main_arg1) (V m c main_arg0) (m ((c : Thread nD τ).loc main_arg2)))
    (fun t _ => flushed_eq m c t) covered, V_main_arg1, V_main_arg0]

/-- The kernel's run with its result named: the affine map of the arguments, which end unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg1)) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AffineValue

end
-- ==== Proof.ReferenceAffine.lean ====
/-
  The reference's result is the affine map on columns.

  The reference computes `einsum('oi,ib->ob', weight, x) + bias[:, None]`: a matrix product [1024, 1024] × [1024, 16384]
  with the second axis of `weight` contracted against the first of `x`, and the bias vector made a column [1024, 1] and
  broadcast along the 16384 columns. Read at an index (r, c) this is `(∑ k, weight[r, k] · x[k, c]) + bias[r]`, which
  is `affine weight x bias` word for word: the product's two operand indices and the two broadcasts' operand index are
  rewritten as coordinates, and nothing else is needed.
-/
import proofs.«106586_j56495999811946_1_alg».proof.Proof.Gen.ReferenceIdeal.Read
import proofs.«106586_j56495999811946_1_alg».proof.Proof.LibAffineColumns

noncomputable section

namespace Cert.ReferenceIdeal.AffineValue

open Cert.ReferenceIdeal Cert.ReferenceIdeal.Gen Cert.ReferenceIdeal.Read
open Idealize.ShloMosaic Idealize.ShloMosaic.ValueIdx Cert.AffineColumns

/-- The reference's last stage, as a function of the three argument arrays, is the affine map on columns. -/
theorem reference_eq_affine (x : (⟨S1024x16384, .f32⟩ : BufTy).Contents (Elt Ideal))
    (w : (⟨S1024x1024, .f32⟩ : BufTy).Contents (Elt Ideal)) (bias : (⟨S1024, .f32⟩ : BufTy).Contents (Elt Ideal)) :
    val_main_v3 (F := Ideal) x w bias = affine w x bias := by
  funext i
  -- the product reads `weight` at (row of i, k) and `x` at (k, column of i)
  have el : ∀ k : Fin 1024, lidx_main_v0 i k = ix2 (i 0) k := fun k => funext fun a => Fin.ext (by
    match a with
    | ⟨0, _⟩ => rfl
    | ⟨1, _⟩ => rfl)
  have er : ∀ k : Fin 1024, ridx_main_v0 i k = ix2 k (i 1) := fun k => funext fun a => Fin.ext (by
    match a with
    | ⟨0, _⟩ => rfl
    | ⟨1, _⟩ => rfl)
  -- the two broadcasts read `bias` at the row of i
  have eb : idx_main_v1 (idx_main_v2 i) = ix1 (i 0) := funext fun a => Fin.ext (by
    match a with
    | ⟨0, _⟩ => rfl)
  rw [val_main_v3_apply, val_main_v0_apply, val_main_v2_apply, val_main_v1_apply, eb]
  simp only [el, er]
  rfl

end Cert.ReferenceIdeal.AffineValue

end
-- ==== Proof.lean ====
/- The proof of `Cert.Claim` (proofs.«106586_j56495999811946_1_alg».proof.Defs).

   The kernel computes `out = weight · x + bias[:, None]` for weight [1024, 1024], x [1024, 16384] and bias [1024]: a
   grid of 16 points, each multiplying the whole weight matrix by one block of 1024 columns of x into a zero accumulator
   (the operands first rounded to a narrower float format) and adding the bias column broadcast along the lanes. The
   reference is `einsum('oi,ib->ob', weight, x) + bias[:, None]`.

   Over the extended reals a change of float format is the identity, so both programs compute, at every index (r, c),
   `(∑ k, weight[r, k] · x[k, c]) + bias[r]` — the same sum over the same index set and the same addition, with no
   re-association across blocks (the contraction is never split). No algebraic law joins the two sides and the inputs'
   finiteness is never used.

   Proof/LibAffineColumns.lean names that whole-array function (`affine`) and reads one block of the device's
   computation at an index; Proof/KernelBlock.lean instantiates it at the body's stored value; Proof/KernelAffine.lean
   goes from the 16 written blocks to the whole output array; Proof/ReferenceAffine.lean reads the reference's result
   as the same function. The three frames are the generated runs; the idealization rewrote nothing, so `preserves`
   is `True`. -/
import proofs.«106586_j56495999811946_1_alg».proof.Defs
import proofs.«106586_j56495999811946_1_alg».proof.Proof.Gen.Kernel
import proofs.«106586_j56495999811946_1_alg».proof.Proof.Gen.Kernel.Frame
import proofs.«106586_j56495999811946_1_alg».proof.Proof.Gen.KernelIdeal
import proofs.«106586_j56495999811946_1_alg».proof.Proof.Gen.KernelIdeal.Frame
import proofs.«106586_j56495999811946_1_alg».proof.Proof.Gen.KernelIdeal.Value
import proofs.«106586_j56495999811946_1_alg».proof.Proof.Gen.ReferenceIdeal
import proofs.«106586_j56495999811946_1_alg».proof.Proof.Gen.ReferenceIdeal.Run
import proofs.«106586_j56495999811946_1_alg».proof.Proof.Gen.ReferenceIdeal.Read
import proofs.«106586_j56495999811946_1_alg».proof.Proof.Gen.Pre_finite_inputs
import proofs.«106586_j56495999811946_1_alg».proof.Proof.KernelAffine
import proofs.«106586_j56495999811946_1_alg».proof.Proof.ReferenceAffine
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's output array and the reference's result are both the
    affine map `(∑ k, weight[r, k] · x[k, c]) + bias[r]` of those arguments. -/
theorem algebraic : Cert.algebraic_KernelIdeal_ReferenceIdeal := by
  intro m ρ m' ρ' _ hagree
  refine ⟨_, Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.AffineValue.reference_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
